-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1200000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x128 : Shape := ⟨2, ![1300000, 128]⟩

abbrev nBuf : Space → Nat
  | .hbm => 69
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S1x128, .f32⟩
  | .hbm, ⟨9, _⟩ => ⟨S100000x128, .f32⟩
  | .hbm, ⟨10, _⟩ => ⟨S100000, .i32⟩
  | .hbm, ⟨11, _⟩ => ⟨S1x1200000, .i32⟩
  | .hbm, ⟨12, _⟩ => ⟨S1200000, .i32⟩
  | .hbm, ⟨13, _⟩ => ⟨S1300000, .i32⟩
  | .hbm, ⟨14, _⟩ => ⟨S1x1200000, .i32⟩
  | .hbm, ⟨15, _⟩ => ⟨S1200000, .i32⟩
  | .hbm, ⟨16, _⟩ => ⟨S1300000, .i32⟩
  | .hbm, ⟨17, _⟩ => ⟨S_, .f32⟩
  | .hbm, ⟨18, _⟩ => ⟨S1300000, .f32⟩
  | .hbm, ⟨19, _⟩ => ⟨S_, .f32⟩
  | .hbm, ⟨20, _⟩ => ⟨S100000, .f32⟩
  | .hbm, ⟨21, _⟩ => ⟨S1300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1300000, .i32⟩
  | .hbm, ⟨33, _⟩ => ⟨S1300000, .i1⟩
  | .hbm, ⟨34, _⟩ => ⟨S_, .i32⟩
  | .hbm, ⟨35, _⟩ => ⟨S1300000, .i32⟩
  | .hbm, ⟨36, _⟩ => ⟨S1300000, .i32⟩
  | .hbm, ⟨37, _⟩ => ⟨S1300000, .i32⟩
  | .hbm, ⟨38, _⟩ => ⟨S1300000x1, .i32⟩
  | .hbm, ⟨39, _⟩ => ⟨S1300000, .f32⟩
  | .hbm, ⟨40, _⟩ => ⟨S_, .i32⟩
  | .hbm, ⟨41, _⟩ => ⟨S1300000, .i32⟩
  | .hbm, ⟨42, _⟩ => ⟨S1300000, .i1⟩
  | .hbm, ⟨43, _⟩ => ⟨S_, .i32⟩
  | .hbm, ⟨44, _⟩ => ⟨S1300000, .i32⟩
  | .hbm, ⟨45, _⟩ => ⟨S1300000, .i32⟩
  | .hbm, ⟨46, _⟩ => ⟨S1300000, .i32⟩
  | .hbm, ⟨47, _⟩ => ⟨S1300000x1, .i32⟩
  | .hbm, ⟨48, _⟩ => ⟨S1300000, .f32⟩
  | .hbm, ⟨49, _⟩ => ⟨S1300000, .f32⟩
  | .hbm, ⟨50, _⟩ => ⟨S_, .i32⟩
  | .hbm, ⟨51, _⟩ => ⟨S1300000, .i32⟩
  | .hbm, ⟨52, _⟩ => ⟨S1300000, .i1⟩
  | .hbm, ⟨53, _⟩ => ⟨S_, .i32⟩
  | .hbm, ⟨54, _⟩ => ⟨S1300000, .i32⟩
  | .hbm, ⟨55, _⟩ => ⟨S1300000, .i32⟩
  | .hbm, ⟨56, _⟩ => ⟨S1300000, .i32⟩
  | .hbm, ⟨57, _⟩ => ⟨S1300000x1, .i32⟩
  | .hbm, ⟨58, _⟩ => ⟨S1300000x128, .f32⟩
  | .hbm, ⟨59, _⟩ => ⟨S1300000x1, .f32⟩
  | .hbm, ⟨60, _⟩ => ⟨S1300000x128, .f32⟩
  | .hbm, ⟨61, _⟩ => ⟨S1300000x128, .f32⟩
  | .hbm, ⟨62, _⟩ => ⟨S_, .f32⟩
  | .hbm, ⟨63, _⟩ => ⟨S100000x128, .f32⟩
  | .hbm, ⟨64, _⟩ => ⟨S1300000x1, .i32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S64x64_S64x64_S64x128_d1 : Shape.Concatenates [S64x64, S64x64] S64x128 1
  concatenates_S64_S64_S128_d0 : Shape.Concatenates [S64, S64] S128 0
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x128_S5000x128_0_0 : ∀ a, (![0, 0] : Fin 2 → Nat) a + S5000x128.size a ≤ S5000x128.size a
  h_S5000x128 : 0 < S5000x128.numel
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x128_0_1 : S1300000x1.BroadcastsInDim S1300000x128 (![0, 1] : Fin 2 → Fin S1300000x128.rank)
  bcast_S_S100000x128 : S_.BroadcastsInDim S100000x128 (![] : Fin 0 → Fin S100000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S100000x128_S100000x64_0_0 : S100000x128.Slices ![0, 0] S100000x64
  slices_S100000x128_S100000x64_0_64 : S100000x128.Slices ![0, 64] S100000x64
  dot_S5000x64_S64x128_S5000x128_1_0_0_1_n_n_wf : DotDims.WF S5000x64 S64x128 S5000x128 [1] [0] [0] [1] [] []
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x128_S1300000x1_S1300000x128_1_0_n_n_0_1_1128_wf : GatherDims.WF S100000x128 S1300000x1 S1300000x128 [1] [0] [] [0] [] 1 ![1, 128]
  scatter_S100000x128_S1300000x1_S1300000x128_1_0_0_1_wf : ScatterDims.WF S100000x128 S1300000x1 S1300000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x128_S1300000x1_S1300000x128_1_0_n_n_0_1_1128 : GatherDims S100000x128 S1300000x1 S1300000x128 where
  offsetDims := [1]
  collapsedSliceDims := [0]
  operandBatchingDims := []
  startIndicesBatchingDims := []
  startIndexMap := [0]
  indexVectorDim := 1
  sliceSizes := ![1, 128]
  wf := gather_S100000x128_S1300000x1_S1300000x128_1_0_n_n_0_1_1128_wf
def scatter_S100000x128_S1300000x1_S1300000x128_1_0_0_1 : ScatterDims S100000x128 S1300000x1 S1300000x128 where
  updateWindowDims := [1]
  insertedWindowDims := [0]
  scatterDimsToOperandDims := [0]
  indexVectorDim := 1
  wf := scatter_S100000x128_S1300000x1_S1300000x128_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩

abbrev nBuf : Space → Nat
  | .hbm => 86
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1200000, .i32⟩
  | .hbm, ⟨8, _⟩ => ⟨S1200000, .i32⟩
  | .hbm, ⟨9, _⟩ => ⟨S1300000, .i32⟩
  | .hbm, ⟨10, _⟩ => ⟨S1x1200000, .i32⟩
  | .hbm, ⟨11, _⟩ => ⟨S1200000, .i32⟩
  | .hbm, ⟨12, _⟩ => ⟨S1300000, .i32⟩
  | .hbm, ⟨13, _⟩ => ⟨S_, .f32⟩
  | .hbm, ⟨14, _⟩ => ⟨S1300000, .f32⟩
  | .hbm, ⟨15, _⟩ => ⟨S_, .f32⟩
  | .hbm, ⟨16, _⟩ => ⟨S100000, .f32⟩
  | .hbm, ⟨17, _⟩ => ⟨S1300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1300000, .i32⟩
  | .hbm, ⟨29, _⟩ => ⟨S1300000, .i1⟩
  | .hbm, ⟨30, _⟩ => ⟨S_, .i32⟩
  | .hbm, ⟨31, _⟩ => ⟨S1300000, .i32⟩
  | .hbm, ⟨32, _⟩ => ⟨S1300000, .i32⟩
  | .hbm, ⟨33, _⟩ => ⟨S1300000, .i32⟩
  | .hbm, ⟨34, _⟩ => ⟨S1300000x1, .i32⟩
  | .hbm, ⟨35, _⟩ => ⟨S1300000, .f32⟩
  | .hbm, ⟨36, _⟩ => ⟨S_, .i32⟩
  | .hbm, ⟨37, _⟩ => ⟨S1300000, .i32⟩
  | .hbm, ⟨38, _⟩ => ⟨S1300000, .i1⟩
  | .hbm, ⟨39, _⟩ => ⟨S_, .i32⟩
  | .hbm, ⟨40, _⟩ => ⟨S1300000, .i32⟩
  | .hbm, ⟨41, _⟩ => ⟨S1300000, .i32⟩
  | .hbm, ⟨42, _⟩ => ⟨S1300000, .i32⟩
  | .hbm, ⟨43, _⟩ => ⟨S1300000x1, .i32⟩
  | .hbm, ⟨44, _⟩ => ⟨S1300000, .f32⟩
  | .hbm, ⟨45, _⟩ => ⟨S1300000, .f32⟩
  | .hbm, ⟨46, _⟩ => ⟨S100000x64, .f32⟩
  | .hbm, ⟨47, _⟩ => ⟨S_, .i32⟩
  | .hbm, ⟨48, _⟩ => ⟨S1300000, .i32⟩
  | .hbm, ⟨49, _⟩ => ⟨S1300000, .i1⟩
  | .hbm, ⟨50, _⟩ => ⟨S_, .i32⟩
  | .hbm, ⟨51, _⟩ => ⟨S1300000, .i32⟩
  | .hbm, ⟨52, _⟩ => ⟨S1300000, .i32⟩
  | .hbm, ⟨53, _⟩ => ⟨S1300000, .i32⟩
  | .hbm, ⟨54, _⟩ => ⟨S1300000x1, .i32⟩
  | .hbm, ⟨55, _⟩ => ⟨S1300000x64, .f32⟩
  | .hbm, ⟨56, _⟩ => ⟨S1300000x1, .f32⟩
  | .hbm, ⟨57, _⟩ => ⟨S1300000x64, .f32⟩
  | .hbm, ⟨58, _⟩ => ⟨S1300000x64, .f32⟩
  | .hbm, ⟨59, _⟩ => ⟨S_, .f32⟩
  | .hbm, ⟨60, _⟩ => ⟨S100000x64, .f32⟩
  | .hbm, ⟨61, _⟩ => ⟨S1300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S_, .i32⟩
  | .hbm, ⟨68, _⟩ => ⟨S1300000, .i32⟩
  | .hbm, ⟨69, _⟩ => ⟨S1300000, .i1⟩
  | .hbm, ⟨70, _⟩ => ⟨S_, .i32⟩
  | .hbm, ⟨71, _⟩ => ⟨S1300000, .i32⟩
  | .hbm, ⟨72, _⟩ => ⟨S1300000, .i32⟩
  | .hbm, ⟨73, _⟩ => ⟨S1300000, .i32⟩
  | .hbm, ⟨74, _⟩ => ⟨S1300000x1, .i32⟩
  | .hbm, ⟨75, _⟩ => ⟨S1300000x64, .f32⟩
  | .hbm, ⟨76, _⟩ => ⟨S1300000x1, .f32⟩
  | .hbm, ⟨77, _⟩ => ⟨S1300000x64, .f32⟩
  | .hbm, ⟨78, _⟩ => ⟨S1300000x64, .f32⟩
  | .hbm, ⟨79, _⟩ => ⟨S_, .f32⟩
  | .hbm, ⟨80, _⟩ => ⟨S100000x64, .f32⟩
  | .hbm, ⟨81, _⟩ => ⟨S1300000x1, .i32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x64_S64x64_S100000x64_1_0_0_1_n_n_wf : DotDims.WF S100000x64 S64x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

class Facts : Prop extends Facts₀ where

variable [Facts]
-- ==== Proof.KernelRun.lean ====
/-
  The idealized kernel program's whole run, with every buffer's final contents named.

  The program is seven segments: the host operations that join the two weights and the two biases, the first kernel
  region (the product), three stretches of host operations (degrees, normalisation, gather, scaling, scatter-add), the
  second kernel region (the bias), and the two final slices. The buffer contents at the segments' boundaries are the
  fold `W0 … W7` of the generated frame: a host stretch applies its operations (`StableHlo.after`), a region replaces its
  windows' arrays by what its write-backs leave. Every weakly fair execution terminates, faults nowhere, and ends with
  every unscoped buffer at the last boundary's contents `W7`; in particular the two results and the six arguments.
-/
import proofs.«155569_j46651934769921_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results at the last boundary's contents, the arguments as launched. -/
theorem run : θ_run defs (onTc (τ := τ) (main (F := F))) ⟨m, fun _ => 0, ρ⟩ (fun r => ∀ c : Dev nD,
      r.2.mem ((c.tc : Thread nD τ).loc main_v48) = W7 m ρ c (Proc.devRef .tc main_v48)
      ∧ r.2.mem ((c.tc : Thread nD τ).loc main_v49) = W7 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v48 (by decide)),
       h c _ (mem_uc main_v49 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Whole

end
-- ==== Proof.KernelHost.lean ====
/-
  The host operations of the idealized kernel program, read as terms.

  Around its two kernel regions the program computes on the host: before the first region the two weights joined side
  by side and the two biases joined end to end; between the regions the edges' sources and targets (the edge list's
  two rows, each followed by one self-loop per node), the nodes' degrees, their inverse square roots where positive,
  the edges' weights, the rows of the product gathered at the sources, scaled and added into a table of zeros at the
  targets; after the second region the two halves of the columns. Each stretch is a list of operations; what a buffer
  holds after a stretch, from arbitrary contents `X` before it, is the operations' term of `X`'s buffers.
-/
import proofs.«155569_j46651934769921_1_alg».proof.Proof.Gen.KernelIdeal.Frame
import Idealize.ShloMosaic.Lib.StableHlo.Run
import Idealize.ShloMosaic.PureOps.Ideal
import Idealize.ShloMosaic.Lib.ValueIdx

set_option maxRecDepth 16384

noncomputable section

namespace Cert.KernelIdeal.Graph

open Cert.KernelIdeal Cert.KernelIdeal.Gen Idealize.ShloMosaic Idealize.ShloMosaic.TcCoe Idealize.SL.Sem Idealize.ShloMosaic.StableHlo

/-- The edges' sources: the first row of the edge list, then one self-loop per node. -/
def srcIdx (ei : IVec S2x1200000 32) : IVec S1300000 32 :=
  concatenate S1300000 0 [⟨S1200000, (shapeCast _ (extractStridedSlice S1x1200000 ![0, 0] ei slices_S2x1200000_S1x1200000_0_0) shapeCasts_S1x1200000_S1200000)⟩, ⟨S100000, (iotaInDim S100000 32 0)⟩] concatenates_S1200000_S100000_S1300000_d0

/-- The edges' targets: the second row of the edge list, then one self-loop per node. -/
def dstIdx (ei : IVec S2x1200000 32) : IVec S1300000 32 :=
  concatenate S1300000 0 [⟨S1200000, (shapeCast _ (extractStridedSlice S1x1200000 ![1, 0] ei slices_S2x1200000_S1x1200000_1_0) shapeCasts_S1x1200000_S1200000)⟩, ⟨S100000, (iotaInDim S100000 32 0)⟩] concatenates_S1200000_S100000_S1300000_d0

/-- An index vector as a one-column matrix. -/
def col (v : IVec S1300000 32) : IVec S1300000x1 32 :=
  broadcastInDim S1300000x1 ![0] bcast_S1300000_S1300000x1_0 v

/-- An index vector with its negative entries moved up by the number of nodes, as a one-column matrix. -/
def wrapCol (v : IVec S1300000 32) : IVec S1300000x1 32 :=
  broadcastInDim S1300000x1 ![0] bcast_S1300000_S1300000x1_0 (select (cmpi .slt v (broadcastInDim S1300000 ![] bcast_S_S1300000 (constantI S_ 32 0#32))) (addi v (broadcastInDim S1300000 ![] bcast_S_S1300000 (constantI S_ 32 100000#32))) v)

/-- The nodes' in-degrees, self-loops included: ones added into a vector of zeros at the edges' targets. -/
def deg (ei : IVec S2x1200000 32) : FVec Ideal S100000 .f32 :=
  Host.scatterAdd scatter_S100000_S1300000x1_S1300000_n_0_0_1 (broadcastInDim S100000 ![] bcast_S_S100000 (constant S_ .f32 0x00000000#32)) (col (dstIdx ei)) (broadcastInDim S1300000 ![] bcast_S_S1300000 (constant S_ .f32 0x3F800000#32))

/-- The inverse square root of the degree where it is positive, zero elsewhere. -/
def dinv (ei : IVec S2x1200000 32) : FVec Ideal S100000 .f32 :=
  select (cmpf .ogt (deg ei) (broadcastInDim S100000 ![] bcast_S_S100000 (constant S_ .f32 0x00000000#32))) (Host.rsqrt (deg ei)) (broadcastInDim S100000 ![] bcast_S_S100000 (id (constant S_ .f32 0x00000000#32)))

/-- The edges' weights from the nodes' scales: the product of the two ends' scales. -/
def normOf (dv : FVec Ideal S100000 .f32) (s d : IVec S1300000 32) : FVec Ideal S1300000 .f32 :=
  mulf (Host.gather gather_S100000_S1300000x1_S1300000_n_0_n_n_0_1_1 dv (wrapCol s)) (Host.gather gather_S100000_S1300000x1_S1300000_n_0_n_n_0_1_1 dv (wrapCol d))

/-- The edges' weights: the product of the two ends' inverse square-root degrees. -/
def norm (ei : IVec S2x1200000 32) : FVec Ideal S1300000 .f32 :=
  normOf (dinv ei) (srcIdx ei) (dstIdx ei)

variable (X : Valuation τ sig (Elt Ideal))

/-! ## Before the first region -/

/-- The two weights side by side. -/
theorem weights_joined : StableHlo.after (hostOps0 (F := Ideal)) X (Proc.devRef .tc main_v0)
    = concatenate S64x128 1 [⟨S64x64, X (Proc.devRef .tc main_arg2)⟩, ⟨S64x64, X (Proc.devRef .tc main_arg4)⟩] concatenates_S64x64_S64x64_S64x128_d1 := by
  after_results_simp <;> rfl

/-- The two biases end to end, as a one-row matrix. -/
theorem biases_joined : StableHlo.after (hostOps0 (F := Ideal)) X (Proc.devRef .tc main_v2)
    = shapeCast _ (concatenate S128 0 [⟨S64, X (Proc.devRef .tc main_arg3)⟩, ⟨S64, X (Proc.devRef .tc main_arg5)⟩] concatenates_S64_S64_S128_d0) shapeCasts_S128_S1x128 := by
  after_results_simp <;> rfl

theorem nodes_kept0 : StableHlo.after (hostOps0 (F := Ideal)) X (Proc.devRef .tc main_arg0) = X (Proc.devRef .tc main_arg0) := by
  after_results_simp <;> rfl

theorem edges_kept0 : StableHlo.after (hostOps0 (F := Ideal)) X (Proc.devRef .tc main_arg1) = X (Proc.devRef .tc main_arg1) := by
  after_results_simp <;> rfl

/-! ## Between the regions: sources, targets, degrees -/

set_option maxHeartbeats 4000000 in
theorem src_read : StableHlo.after (hostOps1 (F := Ideal)) X (Proc.devRef .tc main_v7) = srcIdx (X (Proc.devRef .tc main_arg1)) := by
  after_results_simp <;> rfl

set_option maxHeartbeats 4000000 in
theorem dst_read : StableHlo.after (hostOps1 (F := Ideal)) X (Proc.devRef .tc main_v10) = dstIdx (X (Proc.devRef .tc main_arg1)) := by
  after_results_simp <;> rfl

set_option maxHeartbeats 4000000 in
theorem positive_read : StableHlo.after (hostOps1 (F := Ideal)) X (Proc.devRef .tc main_v16)
    = cmpf .ogt (deg (X (Proc.devRef .tc main_arg1))) (broadcastInDim S100000 ![] bcast_S_S100000 (constant S_ .f32 0x00000000#32)) := by
  after_results_simp <;> rfl

set_option maxHeartbeats 4000000 in
theorem rsqrt_read : StableHlo.after (hostOps1 (F := Ideal)) X (Proc.devRef .tc main_v17) = Host.rsqrt (deg (X (Proc.devRef .tc main_arg1))) := by
  after_results_simp <;> rfl

set_option maxHeartbeats 4000000 in
theorem zero_read : @Eq (FVec Ideal S_ .f32) (StableHlo.after (hostOps1 (F := Ideal)) X (Proc.devRef .tc main_cst_2)) (constant S_ .f32 0x00000000#32) := by
  after_results_simp <;> rfl

set_option maxHeartbeats 4000000 in
theorem product_kept1 : StableHlo.after (hostOps1 (F := Ideal)) X (Proc.devRef .tc main_v3) = X (Proc.devRef .tc main_v3) := by
  after_results_simp <;> rfl

set_option maxHeartbeats 4000000 in
theorem biases_kept1 : StableHlo.after (hostOps1 (F := Ideal)) X (Proc.devRef .tc main_v2) = X (Proc.devRef .tc main_v2) := by
  after_results_simp <;> rfl

/-! ## The selection of the inverse square roots -/

theorem select_read : StableHlo.after (hostOps1_1 (F := Ideal)) X (Proc.devRef .tc main_v18)
    = select (X (Proc.devRef .tc main_v16)) (X (Proc.devRef .tc main_v17)) (broadcastInDim S100000 ![] bcast_S_S100000 (id (X (Proc.devRef .tc main_cst_2)))) := by
  after_results_simp <;> rfl

theorem src_kept2 : StableHlo.after (hostOps1_1 (F := Ideal)) X (Proc.devRef .tc main_v7) = X (Proc.devRef .tc main_v7) := by
  after_results_simp <;> rfl

theorem dst_kept2 : StableHlo.after (hostOps1_1 (F := Ideal)) X (Proc.devRef .tc main_v10) = X (Proc.devRef .tc main_v10) := by
  after_results_simp <;> rfl

theorem product_kept2 : StableHlo.after (hostOps1_1 (F := Ideal)) X (Proc.devRef .tc main_v3) = X (Proc.devRef .tc main_v3) := by
  after_results_simp <;> rfl

theorem biases_kept2 : StableHlo.after (hostOps1_1 (F := Ideal)) X (Proc.devRef .tc main_v2) = X (Proc.devRef .tc main_v2) := by
  after_results_simp <;> rfl

/-! ## Weights, gather, scaling, scatter-add -/

set_option maxHeartbeats 4000000 in
theorem aggregate_read : StableHlo.after (hostOps1_2 (F := Ideal)) X (Proc.devRef .tc main_v46)
    = Host.scatterAdd scatter_S100000x128_S1300000x1_S1300000x128_1_0_0_1 (broadcastInDim S100000x128 ![] bcast_S_S100000x128 (constant S_ .f32 0x00000000#32)) (col (X (Proc.devRef .tc main_v10)))
        (mulf (Host.gather gather_S100000x128_S1300000x1_S1300000x128_1_0_n_n_0_1_1128 (X (Proc.devRef .tc main_v3)) (wrapCol (X (Proc.devRef .tc main_v7))))
          (broadcastInDim S1300000x128 ![0, 1] bcast_S1300000x1_S1300000x128_0_1 (broadcastInDim S1300000x1 ![0] bcast_S1300000_S1300000x1_0
            (normOf (X (Proc.devRef .tc main_v18)) (X (Proc.devRef .tc main_v7)) (X (Proc.devRef .tc main_v10)))))) := by
  after_results_simp <;> rfl

set_option maxHeartbeats 4000000 in
theorem biases_kept3 : StableHlo.after (hostOps1_2 (F := Ideal)) X (Proc.devRef .tc main_v2) = X (Proc.devRef .tc main_v2) := by
  after_results_simp <;> rfl

/-! ## After the second region -/

theorem left_half : StableHlo.after (hostOps2 (F := Ideal)) X (Proc.devRef .tc main_v48)
    = extractStridedSlice S100000x64 ![0, 0] (X (Proc.devRef .tc main_v47)) slices_S100000x128_S100000x64_0_0 := by
  after_results_simp <;> rfl

theorem right_half : StableHlo.after (hostOps2 (F := Ideal)) X (Proc.devRef .tc main_v49)
    = extractStridedSlice S100000x64 ![0, 64] (X (Proc.devRef .tc main_v47)) slices_S100000x128_S100000x64_0_64 := by
  after_results_simp <;> rfl

end Cert.KernelIdeal.Graph

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.Linear.lean ====
/-
  The first kernel region: the node table times the two weights side by side.

  The region walks the `[100000, 64]` node table in twenty blocks of 5000 rows. At point `t` it reads rows
  `5000 t … 5000 t + 4999` of the table and the whole `[64, 128]` weight, multiplies them (the change of float format
  before the product is the identity on exact values, and the product is accumulated from zero), and writes the
  `[5000, 128]` block back to the same rows of the result. The twenty blocks tile the result, so the result array ends
  holding, at `(r, j)`, the sum over `k` of `x (r, k) · w (k, j)`: `product`.
  Everything is stated for arbitrary contents `V` of the buffers at the region's entry.
-/
import proofs.«155569_j46651934769921_1_alg».proof.Proof.Gen.KernelIdeal.Frame
import proofs.«155569_j46651934769921_1_alg».proof.Proof.LibContract
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The matrix product of a `[100000, 64]` table and a `[64, 128]` weight. -/
def product (A : S100000x64.Idx → Elt Ideal .f32) (B : S64x128.Idx → Elt Ideal .f32) : S100000x128.Idx → Elt Ideal .f32 :=
  fun i => ∑ k : Fin 64, A (ix2 (i 0) k) * B (ix2 k (i 1))

/-- The body's arithmetic at an entry of the block: the row of the table block times the column of the weight. -/
theorem pay_apply (x0 : Vec Ideal S5000x64 .f32) (x1 : Vec Ideal S64x128 .f32) (j : S5000x128.Idx) :
    k0_pay1 x0 x1 j = ∑ k : Fin 64, x0 (ix2 (j 0) k) * x1 (ix2 k (j 1)) := by
  unfold k0_pay1
  refine (Ideal.matmul_constant_zero_apply dot_S5000x64_S64x128_S5000x128_1_0_0_1_n_n none
    (truncf .bf16 x0 bitsLt_bf16_f32) (truncf .bf16 (shapeCast S64x128 x1 shapeCasts_S64x128_S64x128) bitsLt_bf16_f32) j).trans ?_
  refine (Contract2.sum_contr_eq_sum_fin dot_S5000x64_S64x128_S5000x128_1_0_0_1_n_n rfl rfl rfl rfl
    (fun _ _ => rfl) (fun _ _ => rfl) _ _ j).trans ?_
  refine Finset.sum_congr rfl fun k _ => ?_
  rw [truncf_apply, truncf_apply, shapeCast_self]

/-- Where the three windows' blocks sit at point `t`: the table's and the result's block is block `t` of the rows, the
    weight's block is the whole weight (decided over the twenty points). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The table's block at point `t` is rows `5000 t …` of the table. -/
theorem table_read (c : Dev nD) (t : Fin cfg0.N) (y : S5000x64.Idx) (k : S100000x64.Idx)
    (hk0 : (k 0).val = 5000 * t.val + (y 0).val) (hk1 : (k 1).val = (y 1).val) :
    (iblk0 V c 0 t : Vec Ideal S5000x64 .f32) y = (V c main_arg0 : S100000x64.Idx → Elt Ideal .f32) k := by
  obtain ⟨h00, h01, -⟩ := idx_facts t
  unfold iblk0
  rw [View.read_apply]
  show V c main_arg0 _ = V c main_arg0 _
  congr 1
  funext a
  apply Fin.ext
  match a with
  | ⟨0, _⟩ => show win0_0.index t 0 * 5000 + 1 * (y 0).val = (k 0).val; rw [h00, hk0]; omega
  | ⟨1, _⟩ => show win0_0.index t 1 * 64 + 1 * (y 1).val = (k 1).val; rw [h01, hk1]; omega

/-- The weight's block at every point is the whole weight. -/
theorem weight_read (c : Dev nD) (t : Fin cfg0.N) (y : S64x128.Idx) (k : S64x128.Idx)
    (hk0 : (k 0).val = (y 0).val) (hk1 : (k 1).val = (y 1).val) :
    (iblk0 V c 1 t : Vec Ideal S64x128 .f32) y = (V c main_v0 : S64x128.Idx → Elt Ideal .f32) k := by
  obtain ⟨-, -, h10, h11, -⟩ := idx_facts t
  unfold iblk0
  rw [View.read_apply]
  show V c main_v0 _ = V c main_v0 _
  congr 1
  funext a
  apply Fin.ext
  match a with
  | ⟨0, _⟩ => show win0_1.index t 0 * 64 + 1 * (y 0).val = (k 0).val; rw [h10, hk0]; omega
  | ⟨1, _⟩ => show win0_1.index t 1 * 128 + 1 * (y 1).val = (k 1).val; rw [h11, hk1]; omega

/-- Entry `y` of the result's block at point `t` sits at row `5000 t + y₀`, column `y₁` of the result. -/
theorem out_emb (t : Fin cfg0.N) (y : S5000x128.Idx) :
    ((((cfg0.win 2).blk t).view.emb y) 0).val = 5000 * t.val + (y 0).val
      ∧ ((((cfg0.win 2).blk t).view.emb y) 1).val = (y 1).val := by
  obtain ⟨-, -, -, -, h20, h21⟩ := idx_facts t
  constructor
  · show win0_2.index t 0 * 5000 + 1 * (y 0).val = _; rw [h20]; omega
  · show win0_2.index t 1 * 128 + 1 * (y 1).val = _; rw [h21]; omega

/-- What point `t` writes back is block `t` of `product`. -/
theorem flushed_eq (c : Dev nD) (t : Fin cfg0.N) :
    (dat0 V c).flushed 2 t = ((cfg0.win 2).blk t).view.read (Elt Ideal) (product (V c main_arg0) (V c main_v0)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x128) hz]
  funext y
  obtain ⟨e0, e1⟩ := out_emb t y
  show k0_pay1 (iblk0 V c 0 t) (iblk0 V c 1 t) y = product (V c main_arg0) (V c main_v0) (((cfg0.win 2).blk t).view.emb y)
  refine (pay_apply _ _ y).trans ?_
  unfold product
  refine Finset.sum_congr rfl fun k _ => ?_
  exact congrArg₂ (· * ·) (table_read V c t _ _ e0 rfl) (weight_read V c t _ _ rfl e1)

/-- Every entry of the result lies in some point's block: row `r` in block `r / 5000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 5000 < cfg0.N := by rw [show cfg0.N = 20 from N_0]; omega
  obtain ⟨-, -, -, -, h20, h21⟩ := idx_facts ⟨(i 0).val / 5000, hN⟩
  refine ⟨⟨(i 0).val / 5000, hN⟩, flush0_2 _, ?_⟩
  show i ∈ ((View.whole main_v3).slice (win0_2.rect ⟨(i 0).val / 5000, hN⟩)).set
  rw [View.set_slice_whole, Rect.mem_set_unit]
  intro a
  match a with
  | ⟨0, _⟩ =>
    show win0_2.index _ 0 * 5000 ≤ (i 0).val ∧ (i 0).val < win0_2.index _ 0 * 5000 + 5000
    rw [h20]; show (i 0).val / 5000 * 5000 ≤ (i 0).val ∧ (i 0).val < (i 0).val / 5000 * 5000 + 5000; omega
  | ⟨1, _⟩ =>
    show win0_2.index _ 1 * 128 ≤ (i 1).val ∧ (i 1).val < win0_2.index _ 1 * 128 + 128
    rw [h21]; omega

/-- The result array after the region: the product of the table and the weight. -/
theorem final (c : Dev nD) : (dat0 V c).arrAt 2 cfg0.N = product (V c main_arg0) (V c main_v0) :=
  (dat0 V c).arrAt_eq_of_cover 2 (product (V c main_arg0) (V c main_v0)) (fun t _ => flushed_eq V c t) cover

end Cert.KernelIdeal.Linear

end
-- ==== Proof.Bias.lean ====
/-
  The second kernel region: the bias row added to every row of the aggregated table.

  The region walks the `[100000, 128]` table in twenty blocks of 5000 rows. At point `t` it reads rows
  `5000 t … 5000 t + 4999` of the table and the one row of the `[1, 128]` bias, adds the bias row to each of the 5000
  rows, and writes the block back to the same rows of the result. The twenty blocks tile the result, so the result
  array ends holding, at `(r, j)`, the table's entry `(r, j)` plus the bias' entry `(0, j)`: `biased`.
  Everything is stated for arbitrary contents `V` of the buffers at the region's entry.
-/
import proofs.«155569_j46651934769921_1_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.Bias

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The table with the bias row added to every row. -/
def biased (A : S100000x128.Idx → Elt Ideal .f32) (B : S1x128.Idx → Elt Ideal .f32) : S100000x128.Idx → Elt Ideal .f32 :=
  fun i => A i + B (ix2 (0 : Fin 1) (i 1))

/-- The body's arithmetic at an entry of the block: the table block's entry plus the bias row's entry in that column. -/
theorem pay_apply (x0 : Vec Ideal S5000x128 .f32) (x1 : Vec Ideal S1x128 .f32) (j : S5000x128.Idx) :
    k1_pay1 x0 x1 j = x0 j + x1 (ix2 (0 : Fin 1) (j 1)) := by
  obtain ⟨p, q, rfl⟩ : ∃ (p : Fin 5000) (q : Fin 128), j = ix2 p q := ⟨j 0, j 1, eq_ix2 j⟩
  unfold k1_pay1
  refine (addf_apply _ _ _).trans ?_
  rw [shapeCast_self, shapeCast_self, broadcastTo_1b_ab_apply]

/-- Where the three windows' blocks sit at point `t`: the table's and the result's block is block `t` of the rows, the
    bias' block is the whole bias (decided over the twenty points). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The table's block at point `t` is rows `5000 t …` of the table. -/
theorem table_read (c : Dev nD) (t : Fin cfg1.N) (y : S5000x128.Idx) (k : S100000x128.Idx)
    (hk0 : (k 0).val = 5000 * t.val + (y 0).val) (hk1 : (k 1).val = (y 1).val) :
    (iblk1 V c 0 t : Vec Ideal S5000x128 .f32) y = (V c main_v46 : S100000x128.Idx → Elt Ideal .f32) k := by
  obtain ⟨h00, h01, -⟩ := idx_facts t
  unfold iblk1
  rw [View.read_apply]
  show V c main_v46 _ = V c main_v46 _
  congr 1
  funext a
  apply Fin.ext
  match a with
  | ⟨0, _⟩ => show win1_0.index t 0 * 5000 + 1 * (y 0).val = (k 0).val; rw [h00, hk0]; omega
  | ⟨1, _⟩ => show win1_0.index t 1 * 128 + 1 * (y 1).val = (k 1).val; rw [h01, hk1]; omega

/-- The bias' block at every point is the whole bias row. -/
theorem bias_read (c : Dev nD) (t : Fin cfg1.N) (y : S1x128.Idx) :
    (iblk1 V c 1 t : Vec Ideal S1x128 .f32) y = (V c main_v2 : S1x128.Idx → Elt Ideal .f32) y := by
  obtain ⟨-, -, h10, h11, -⟩ := idx_facts t
  unfold iblk1
  rw [View.read_apply]
  show V c main_v2 _ = V c main_v2 _
  congr 1
  funext a
  apply Fin.ext
  match a with
  | ⟨0, _⟩ => show win1_1.index t 0 * 1 + 1 * (y 0).val = (y 0).val; rw [h10]; omega
  | ⟨1, _⟩ => show win1_1.index t 1 * 128 + 1 * (y 1).val = (y 1).val; rw [h11]; omega

/-- Entry `y` of the result's block at point `t` sits at row `5000 t + y₀`, column `y₁` of the result. -/
theorem out_emb (t : Fin cfg1.N) (y : S5000x128.Idx) :
    ((((cfg1.win 2).blk t).view.emb y) 0).val = 5000 * t.val + (y 0).val
      ∧ ((((cfg1.win 2).blk t).view.emb y) 1).val = (y 1).val := by
  obtain ⟨-, -, -, -, h20, h21⟩ := idx_facts t
  constructor
  · show win1_2.index t 0 * 5000 + 1 * (y 0).val = _; rw [h20]; omega
  · show win1_2.index t 1 * 128 + 1 * (y 1).val = _; rw [h21]; omega

/-- What point `t` writes back is block `t` of `biased`. -/
theorem flushed_eq (c : Dev nD) (t : Fin cfg1.N) :
    (dat1 V c).flushed 2 t = ((cfg1.win 2).blk t).view.read (Elt Ideal) (biased (V c main_v46) (V c main_v2)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  funext y
  obtain ⟨e0, e1⟩ := out_emb t y
  show k1_pay1 (iblk1 V c 0 t) (iblk1 V c 1 t) y = biased (V c main_v46) (V c main_v2) (((cfg1.win 2).blk t).view.emb y)
  refine (pay_apply _ _ y).trans ?_
  unfold biased
  refine congrArg₂ (· + ·) (table_read V c t y _ e0 e1) ?_
  refine (bias_read V c t _).trans (congrArg (V c main_v2 : S1x128.Idx → Elt Ideal .f32) (funext fun a => Fin.ext ?_))
  match a with
  | ⟨0, _⟩ => rfl
  | ⟨1, _⟩ => exact e1.symm

/-- Every entry of the result lies in some point's block: row `r` in block `r / 5000`. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : (i 0).val / 5000 < cfg1.N := by rw [show cfg1.N = 20 from N_1]; omega
  obtain ⟨-, -, -, -, h20, h21⟩ := idx_facts ⟨(i 0).val / 5000, hN⟩
  refine ⟨⟨(i 0).val / 5000, hN⟩, flush1_2 _, ?_⟩
  show i ∈ ((View.whole main_v47).slice (win1_2.rect ⟨(i 0).val / 5000, hN⟩)).set
  rw [View.set_slice_whole, Rect.mem_set_unit]
  intro a
  match a with
  | ⟨0, _⟩ =>
    show win1_2.index _ 0 * 5000 ≤ (i 0).val ∧ (i 0).val < win1_2.index _ 0 * 5000 + 5000
    rw [h20]; show (i 0).val / 5000 * 5000 ≤ (i 0).val ∧ (i 0).val < (i 0).val / 5000 * 5000 + 5000; omega
  | ⟨1, _⟩ =>
    show win1_2.index _ 1 * 128 ≤ (i 1).val ∧ (i 1).val < win1_2.index _ 1 * 128 + 128
    rw [h21]; omega

/-- The result array after the region: the table with the bias row added to every row. -/
theorem final (c : Dev nD) : (dat1 V c).arrAt 2 cfg1.N = biased (V c main_v46) (V c main_v2) :=
  (dat1 V c).arrAt_eq_of_cover 2 (biased (V c main_v46) (V c main_v2)) (fun t _ => flushed_eq V c t) cover

end Cert.KernelIdeal.Bias

end
-- ==== Proof.LibRowScatter.lean ====
/-
  Rows of a matrix moved by an index column, read at an index.

  A graph layer gathers the rows of a node table `[N, C]` at one index per edge (`[E, 1]`, the edge's source) and
  adds the gathered rows `[E, C]` into a node table at another index per edge (the edge's target). This file reads
  both operations at one entry, for any extents `N`, `E`, `C`:

  * `gather_rows_apply`: entry `(e, c)` of the gathered table is the operand's entry `(r, c)`, where `r` is the
    edge's index read as a signed integer and clamped into `[0, N - 1]`; `gather_vec_apply` is the same for a
    vector `[N]` gathered into `[E]`;
  * `scatterAdd_rows_apply`: over the extended reals, entry `(n, c)` of the accumulated table is the operand's
    entry plus the sum, over the edges whose index read as a signed integer IS `n`, of the update's entry `(e, c)`.
    An edge whose index is negative or at least `N` contributes to no row.
    (`host_scatterAdd_rows_apply` is the same statement for the host operation `Host.scatterAdd` at the ideal instance.)
  * `clamp_of_inRange` / `wrapNeg_of_nonneg`: an index already in `[0, N)` is left alone both by the clamp and by
    the normalisation of negative indices `select (v < 0) (v + N) v` that precedes a gather.
-/
import Idealize.ShloMosaic.Lib.ValueIdx
import Idealize.ShloMosaic.Lib.Affine

noncomputable section

open scoped BigOperators

namespace Idealize.ShloMosaic.RowScatter

open Idealize.ShloMosaic Idealize.ShloMosaic.ValueIdx

/-! ## Two rank-2 indices are equal when their coordinates are -/

theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

/-! ## Gathering rows -/

/-- The dimension numbers of `x[idx]` for a table `x : [N, C]` and one row index per edge, `idx : [E, 1]`:
    the row axis is collapsed and indexed, the column axis is the slice. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, c)` of the gathered rows: the table's row at edge `e`'s index, read signed and clamped into
    `[0, N - 1]`, at column `c`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 ⟨min (idx (ix2 e (0 : Fin 1))).toInt.toNat (N - 1), by omega⟩ c) := by
  unfold Host.gather
  refine congrArg x (funext fun a => Fin.ext ?_)
  show (rowGather N E C wf).start (ix2 e c) idx a + (rowGather N E C wf).batchCoord (ix2 e c) a
      + (rowGather N E C wf).offCoord (ix2 e c) a = _
  rw [GatherDims.batchCoord_eq_zero _ _ _ List.not_mem_nil]
  revert a
  refine Fin.forall_fin_two.mpr ⟨?_, ?_⟩
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show ¬ (1 : Fin 2) ∈ (rowGather N E C wf).startIndexMap from
      fun h => absurd (List.mem_singleton.mp h) (show (1 : Fin 2) ≠ 0 by decide))]
    simp only [Nat.zero_add, Nat.add_zero]
    unfold GatherDims.offCoord
    rw [dif_pos (show (1 : Fin 2) ∈ (rowGather N E C wf).sKept from
      (GatherDims.mem_sKept _ _).mpr ⟨fun h => absurd (List.mem_singleton.mp h) (show (1 : Fin 2) ≠ 0 by decide), List.not_mem_nil⟩)]
    rfl

/-- The dimension numbers of `v[idx]` for a vector `v : [N]` and one index per edge, `idx : [E, 1]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector: the vector at edge `e`'s index, read signed and clamped into `[0, N - 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e (0 : Fin 1))).toInt.toNat (N - 1), by omega⟩) := by
  unfold Host.gather
  refine congrArg x (funext fun a => Fin.ext ?_)
  obtain rfl : a = 0 := Subsingleton.elim _ _
  show (vecGather N E wf).start (ix1 e) idx 0 + (vecGather N E wf).batchCoord (ix1 e) 0
      + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Adding rows into a table -/

/-- The dimension numbers of `x.at[idx].add(u)` for a table `x : [N, C]`, one row index per edge `idx : [E, 1]`
    and one row of updates per edge `u : [E, C]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An operand axis receives a window axis of the updates exactly when it is not an inserted one. -/
theorem mem_sKept {s si u : Shape} (d : ScatterDims s si u) (a : Fin s.rank) : a ∈ d.sKept ↔ a ∉ d.insertedWindowDims := by
  simp [ScatterDims.sKept, Shape.kept, List.mem_filter, List.mem_finRange]

/-- Where update entry `(e, c)` lands: row `t`, column `c`, when edge `e`'s index read signed is a row `t` of the
    table; nowhere when it is negative or at least `N`. -/
theorem rowScatter_resultIdx? {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).resultIdx? (ix2 e c) idx
      = if h : 0 ≤ (idx (ix2 e (0 : Fin 1))).toInt ∧ (idx (ix2 e (0 : Fin 1))).toInt < N then
          some (ix2 ⟨(idx (ix2 e (0 : Fin 1))).toInt.toNat, by omega⟩ c)
        else none := by
  have hsi : (rowScatter N E C wf).siIdx (ix2 e c) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (rowScatter N E C wf).start (ix2 e c) idx 0 = (idx (ix2 e (0 : Fin 1))).toInt := by
    unfold ScatterDims.start
    rw [dif_pos (show (0 : Fin 2) ∈ (rowScatter N E C wf).scatterDimsToOperandDims from List.mem_singleton.mpr rfl), hsi]
  have hs1 : (rowScatter N E C wf).start (ix2 e c) idx 1 = 0 := by
    unfold ScatterDims.start
    rw [dif_neg (show ¬ (1 : Fin 2) ∈ (rowScatter N E C wf).scatterDimsToOperandDims from
      fun h => absurd (List.mem_singleton.mp h) (show (1 : Fin 2) ≠ 0 by decide))]
  have hw0 : (rowScatter N E C wf).window (ix2 e c) 0 = 0 := by
    unfold ScatterDims.window
    rw [dif_neg (show ¬ (0 : Fin 2) ∈ (rowScatter N E C wf).sKept from
      fun h => (mem_sKept _ _).mp h (List.mem_singleton.mpr rfl))]
  have hw1 : (rowScatter N E C wf).window (ix2 e c) 1 = c.val := by
    unfold ScatterDims.window
    rw [dif_pos (show (1 : Fin 2) ∈ (rowScatter N E C wf).sKept from
      (mem_sKept _ _).mpr fun h => absurd (List.mem_singleton.mp h) (show (1 : Fin 2) ≠ 0 by decide))]
    rfl
  unfold ScatterDims.resultIdx?
  by_cases h : 0 ≤ (idx (ix2 e (0 : Fin 1))).toInt ∧ (idx (ix2 e (0 : Fin 1))).toInt < N
  · have hall : ∀ a : Fin 2, 0 ≤ (rowScatter N E C wf).start (ix2 e c) idx a + (rowScatter N E C wf).window (ix2 e c) a
        ∧ (rowScatter N E C wf).start (ix2 e c) idx a + (rowScatter N E C wf).window (ix2 e c) a
          < ((⟨2, ![N, C]⟩ : Shape).size a : ℤ) := by
      refine Fin.forall_fin_two.mpr ⟨?_, ?_⟩
      · rw [hs0, hw0]
        refine ⟨by omega, ?_⟩
        show (idx (ix2 e (0 : Fin 1))).toInt + ((0 : ℕ) : ℤ) < (N : ℤ)
        omega
      · rw [hs1, hw1]
        refine ⟨by omega, ?_⟩
        show (0 : ℤ) + (c.val : ℤ) < (C : ℤ)
        have := c.isLt; omega
    rw [dif_pos hall, dif_pos h]
    refine congrArg some (funext fun a => Fin.ext ?_)
    match a with
    | ⟨0, _⟩ =>
      show ((rowScatter N E C wf).start (ix2 e c) idx 0 + (rowScatter N E C wf).window (ix2 e c) 0).toNat = _
      rw [hs0, hw0]; simp
    | ⟨1, _⟩ =>
      show ((rowScatter N E C wf).start (ix2 e c) idx 1 + (rowScatter N E C wf).window (ix2 e c) 1).toNat = _
      rw [hs1, hw1]; simp
  · rw [dif_neg h, dif_neg]
    intro hall
    have h0 := hall 0
    rw [hs0, hw0] at h0
    apply h
    refine ⟨by omega, ?_⟩
    have h02 : (idx (ix2 e (0 : Fin 1))).toInt + ((0 : ℕ) : ℤ) < (N : ℤ) := h0.2
    omega

/-- Entry `(n, c)` of a table after rows are added into it, over the extended reals: the entry before, plus the
    sum over the edges whose index read signed is `n` of the update's entry `(e, c)`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c)
        + ∑ e ∈ Finset.univ.filter (fun e : Fin E => (idx (ix2 e (0 : Fin 1))).toInt = (n.val : ℤ)), upd (ix2 e c) := by
  unfold Ideal.hostScatterAdd
  refine congrArg (x (ix2 n c) + ·) ?_
  rw [Finset.sum_filter, Finset.sum_filter, sum_idx2]
  refine Finset.sum_congr rfl fun e _ => ?_
  have hiff : ∀ c' : Fin C, ((rowScatter N E C wf).resultIdx? (ix2 e c') idx = some (ix2 n c))
      ↔ ((idx (ix2 e (0 : Fin 1))).toInt = (n.val : ℤ) ∧ c' = c) := by
    intro c'
    rw [rowScatter_resultIdx?]
    by_cases h : 0 ≤ (idx (ix2 e (0 : Fin 1))).toInt ∧ (idx (ix2 e (0 : Fin 1))).toInt < N
    · rw [dif_pos h, Option.some_inj, ix2_inj]
      constructor
      · rintro ⟨h1, h2⟩
        refine ⟨?_, h2⟩
        have := congrArg Fin.val h1
        simp only at this
        omega
      · rintro ⟨h1, h2⟩
        refine ⟨Fin.ext ?_, h2⟩
        show (idx (ix2 e (0 : Fin 1))).toInt.toNat = n.val
        omega
    · rw [dif_neg h]
      constructor
      · intro hh; exact absurd hh (by simp)
      · rintro ⟨h1, _⟩
        exfalso; apply h
        have := n.isLt
        omega
  by_cases ht : (idx (ix2 e (0 : Fin 1))).toInt = (n.val : ℤ)
  · rw [if_pos ht]
    rw [Finset.sum_eq_single c]
    · rw [if_pos ((hiff c).mpr ⟨ht, rfl⟩)]
    · intro c' _ hne
      rw [if_neg (fun hh => hne ((hiff c').mp hh).2)]
    · intro hc; exact absurd (Finset.mem_univ c) hc
  · rw [if_neg ht]
    refine Finset.sum_eq_zero fun c' _ => ?_
    rw [if_neg (fun hh => ht ((hiff c').mp hh).1)]

/-- The same for the host's accumulating scatter at the ideal instance, which is that sum. -/
theorem host_scatterAdd_rows_apply {N E C w : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w)
    (upd : FVec Ideal ⟨2, ![E, C]⟩ .f32) (n : Fin N) (c : Fin C) :
    Host.scatterAdd (rowScatter N E C wf) x idx upd (ix2 n c)
      = x (ix2 n c)
        + ∑ e ∈ Finset.univ.filter (fun e : Fin E => (idx (ix2 e (0 : Fin 1))).toInt = (n.val : ℤ)), upd (ix2 e c) :=
  scatterAdd_rows_apply wf x idx upd n c

/-! ## An index already in range -/

/-- The clamp into `[0, N - 1]` leaves an index in `[0, N)` alone. -/
theorem clamp_of_inRange {w N : Nat} (v : BitVec w) (h0 : 0 ≤ v.toInt) (hN : v.toInt < N) :
    min v.toInt.toNat (N - 1) = v.toInt.toNat := by
  omega

/-- The normalisation of a possibly negative index, `select (v < 0) (v + N) v` one element at a time, leaves a
    non-negative index alone. -/
theorem wrapNeg_of_nonneg {w : Nat} (v z nn : BitVec w) (hz : z.toInt = 0) (h0 : 0 ≤ v.toInt) :
    Scalar.select (IntOp.cmpi .slt v z) (IntOp.addi v nn) v = v := by
  unfold Scalar.select
  rw [if_neg]
  intro h
  have := IntOp.cmpi_slt.mp h
  omega

end Idealize.ShloMosaic.RowScatter

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.Layer.lean ====
/-
  A graph-convolution layer read at one entry.

  A layer takes a node table `x : [N, K]`, a weight `W : [K, C]`, a bias `b : [C]`, one source and one target index per
  edge and one weight `nrm e` per edge. It gathers the rows of the product `x · W` at the edges' sources, scales row `e`
  by `nrm e`, adds the scaled rows into a table of `z`s at the edges' targets, and adds the bias to every row.
  Entry `(n, j)` of the result is therefore

      (z + ∑ over the edges e whose target is n of (∑ k, x (s e, k) · W (k, j)) · nrm e) + b j,

  where `s e` is edge `e`'s source index read as a signed integer and clamped into `[0, N - 1]`, and an edge whose
  target read as a signed integer lies outside `[0, N)` contributes to no row. `layerOut` is that function.

  `aggregate_apply` reads the middle of the layer — gather, scale, add into the targets' rows — at one entry, for a
  table of any width: entry `(n, c)` depends on column `c` of the gathered table alone. This is what lets two layers
  that share their edges be computed as one layer of twice the width.
-/
import Idealize.ShloMosaic.Lib.ValueIdx
import Idealize.ShloMosaic.Lib.IdealHost
import Idealize.ShloMosaic.PureOps.Ideal.Laws
import proofs.«155569_j46651934769921_1_alg».proof.Proof.LibRowScatter
import proofs.«155569_j46651934769921_1_alg».proof.Proof.LibKeepdims

noncomputable section

open scoped BigOperators

namespace Cert.Gcn

open Idealize.ShloMosaic Idealize.ShloMosaic.ValueIdx Idealize.ShloMosaic.RowScatter

/-- Edge `e`'s source row: its index read as a signed integer and clamped into `[0, N - 1]`. -/
def srcRow {N E : Nat} (hN : 0 < N) (src : IVec ⟨2, ![E, 1]⟩ 32) (e : Fin E) : Fin N :=
  ⟨min (src (ix2 e (0 : Fin 1))).toInt.toNat (N - 1), by omega⟩

/-- The edges whose target, read as a signed integer, is node `n`. -/
def edgesInto {N E : Nat} (dst : IVec ⟨2, ![E, 1]⟩ 32) (n : Fin N) : Finset (Fin E) :=
  Finset.univ.filter (fun e : Fin E => (dst (ix2 e (0 : Fin 1))).toInt = (n.val : ℤ))

/-- Gather the rows of `T` at the edges' sources, scale row `e` by `nrm e`, add the rows into a table of `z`s at the
    edges' targets: entry `(n, c)` is `z` plus the sum over the edges into `n` of `T (s e, c) · nrm e`. -/
theorem aggregate_apply {N E C : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (h0 : (⟨0, ![]⟩ : Shape).BroadcastsInDim ⟨2, ![N, C]⟩ ![])
    (h1 : (⟨1, ![E]⟩ : Shape).BroadcastsInDim ⟨2, ![E, 1]⟩ ![0])
    (h2 : (⟨2, ![E, 1]⟩ : Shape).BroadcastsInDim ⟨2, ![E, C]⟩ ![0, 1])
    (z : FVec Ideal ⟨0, ![]⟩ .f32) (T : FVec Ideal ⟨2, ![N, C]⟩ .f32) (src dst : IVec ⟨2, ![E, 1]⟩ 32)
    (nrm : FVec Ideal ⟨1, ![E]⟩ .f32) (n : Fin N) (c : Fin C) :
    Host.scatterAdd (rowScatter N E C wfS) (broadcastInDim ⟨2, ![N, C]⟩ ![] h0 z) dst
        (mulf (Host.gather (rowGather N E C wfG) T src)
          (broadcastInDim ⟨2, ![E, C]⟩ ![0, 1] h2 (broadcastInDim ⟨2, ![E, 1]⟩ ![0] h1 nrm))) (ix2 n c)
      = z ix0 + ∑ e ∈ edgesInto dst n, T (ix2 (srcRow hN src e) c) * nrm (ix1 e) := by
  rw [host_scatterAdd_rows_apply, broadcastInDim_scalar_apply]
  refine congrArg (z ix0 + ·) (Finset.sum_congr rfl fun e _ => ?_)
  rw [mulf_apply, gather_rows_apply hN, Keepdims.rows_apply]
  rfl

/-- Entry `(n, j)` of a layer's output (the file's header). -/
def layerOut {N E K C : Nat} (hN : 0 < N) (z : EReal) (x : (⟨2, ![N, K]⟩ : Shape).Idx → EReal)
    (W : (⟨2, ![K, C]⟩ : Shape).Idx → EReal) (b : (⟨1, ![C]⟩ : Shape).Idx → EReal)
    (src dst : IVec ⟨2, ![E, 1]⟩ 32) (nrm : (⟨1, ![E]⟩ : Shape).Idx → EReal) :
    (⟨2, ![N, C]⟩ : Shape).Idx → EReal :=
  fun i => (z + ∑ e ∈ edgesInto dst (i 0), (∑ k : Fin K, x (ix2 (srcRow hN src e) k) * W (ix2 k (i 1))) * nrm (ix1 e))
    + b (ix1 (i 1))

/-- The layer assembled: when `T` is the product `x · W` in column `c` and `β` is the bias of column `c`, the
    aggregated table's entry `(n, c)` plus `β` is the layer's output entry. -/
theorem layer_entry {N E K C : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (h0 : (⟨0, ![]⟩ : Shape).BroadcastsInDim ⟨2, ![N, C]⟩ ![])
    (h1 : (⟨1, ![E]⟩ : Shape).BroadcastsInDim ⟨2, ![E, 1]⟩ ![0])
    (h2 : (⟨2, ![E, 1]⟩ : Shape).BroadcastsInDim ⟨2, ![E, C]⟩ ![0, 1])
    (z : FVec Ideal ⟨0, ![]⟩ .f32) (T : FVec Ideal ⟨2, ![N, C]⟩ .f32) (src dst : IVec ⟨2, ![E, 1]⟩ 32)
    (nrm : FVec Ideal ⟨1, ![E]⟩ .f32) (x : (⟨2, ![N, K]⟩ : Shape).Idx → EReal) (W : (⟨2, ![K, C]⟩ : Shape).Idx → EReal)
    (b : (⟨1, ![C]⟩ : Shape).Idx → EReal) (β : EReal) (n : Fin N) (c : Fin C)
    (hT : ∀ r : Fin N, T (ix2 r c) = ∑ k : Fin K, x (ix2 r k) * W (ix2 k c)) (hβ : β = b (ix1 c)) :
    Host.scatterAdd (rowScatter N E C wfS) (broadcastInDim ⟨2, ![N, C]⟩ ![] h0 z) dst
        (mulf (Host.gather (rowGather N E C wfG) T src)
          (broadcastInDim ⟨2, ![E, C]⟩ ![0, 1] h2 (broadcastInDim ⟨2, ![E, 1]⟩ ![0] h1 nrm))) (ix2 n c) + β
      = layerOut hN (z ix0) x W b src dst nrm (ix2 n c) := by
  rw [aggregate_apply hN, hβ]
  refine congrArg₂ (· + ·) (congrArg (z ix0 + ·) (Finset.sum_congr rfl fun e _ => ?_)) rfl
  rw [hT]
  rfl

/-- A layer's output in column `c` depends on column `c` of the weight and entry `c` of the bias alone: two layers whose
    weights and biases agree there have the same output there, whatever their widths. -/
theorem layerOut_cols {N E K C C' : Nat} (hN : 0 < N) (z : EReal) (x : (⟨2, ![N, K]⟩ : Shape).Idx → EReal)
    (W : (⟨2, ![K, C]⟩ : Shape).Idx → EReal) (W' : (⟨2, ![K, C']⟩ : Shape).Idx → EReal)
    (b : (⟨1, ![C]⟩ : Shape).Idx → EReal) (b' : (⟨1, ![C']⟩ : Shape).Idx → EReal)
    (src dst : IVec ⟨2, ![E, 1]⟩ 32) (nrm : (⟨1, ![E]⟩ : Shape).Idx → EReal) (n : Fin N) (c : Fin C) (c' : Fin C')
    (hW : ∀ k : Fin K, W (ix2 k c) = W' (ix2 k c')) (hb : b (ix1 c) = b' (ix1 c')) :
    layerOut hN z x W b src dst nrm (ix2 n c) = layerOut hN z x W' b' src dst nrm (ix2 n c') := by
  unfold layerOut
  refine congrArg₂ (· + ·) (congrArg (z + ·) (Finset.sum_congr rfl fun e _ => congrArg (· * _)
    (Finset.sum_congr rfl fun k _ => congrArg (_ * ·) (hW k)))) hb

end Cert.Gcn

end
-- ==== Proof.LibJoinCols.lean ====
/-
  Matrices joined along their columns, read at an entry.

  When two or three matrices with the same number of rows are laid side by side, the entry (e, q) of the result is
  the entry of the piece whose column range holds q: for widths w1, w2, w3 the first piece at column q when
  q < w1, the second at q − w1 when w1 ≤ q < w1 + w2, the third at q − w1 − w2 beyond. The result's width is
  kept as a number W of its own, so that a printed shape whose width is written as one literal is met directly.
-/
import Idealize.ShloMosaic.Lib.ValueIdx
import Idealize.ShloMosaic.Lib.Pipeline.Value

noncomputable section

namespace Idealize.ShloMosaic.JoinCols

open Idealize.ShloMosaic Idealize.ShloMosaic.ValueIdx

variable {α : Type}

/-- Two matrices side by side, at a column of the first. -/
theorem pair_left {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w1) (q : Fin W) (hq : q.val = a.val) :
    concatenate (⟨2, ![n, W]⟩ : Shape) 1 [⟨(⟨2, ![n, w1]⟩ : Shape), A⟩, ⟨(⟨2, ![n, w2]⟩ : Shape), B⟩] h (ix2 e q) = A (ix2 e a) :=
  concatenate_pair_apply_left 1 A B h (ix2 e q) rfl (ix2 e a)
    (fun b => match b with | ⟨0, _⟩ => rfl | ⟨1, _⟩ => hq.symm)

/-- Two matrices side by side, at a column of the second. -/
theorem pair_right {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w2) (q : Fin W) (hq : q.val = w1 + a.val) :
    concatenate (⟨2, ![n, W]⟩ : Shape) 1 [⟨(⟨2, ![n, w1]⟩ : Shape), A⟩, ⟨(⟨2, ![n, w2]⟩ : Shape), B⟩] h (ix2 e q) = B (ix2 e a) :=
  concatenate_pair_apply_right 1 A B h (ix2 e q) rfl rfl (ix2 e a)
    (fun b hb => match b with | ⟨0, _⟩ => rfl | ⟨1, _⟩ => absurd rfl hb)
    (by show a.val + w1 = q.val; omega)

/-- Three matrices side by side, at a column of the first. -/
theorem triple_left {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w1) (q : Fin W) (hq : q.val = a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = A (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 0 (by simp) _ A rfl rfl 0 rfl (ix2 e a)
    (fun b hb => match b with | ⟨0, _⟩ => rfl | ⟨1, _⟩ => absurd rfl hb)
    (by show 0 + a.val = q.val; omega)

/-- Three matrices side by side, at a column of the second. -/
theorem triple_mid {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w2) (q : Fin W) (hq : q.val = w1 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = B (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 1 (by simp) _ B rfl rfl w1 (by simp) (ix2 e a)
    (fun b hb => match b with | ⟨0, _⟩ => rfl | ⟨1, _⟩ => absurd rfl hb)
    (by show w1 + a.val = q.val; omega)

/-- Three matrices side by side, at a column of the third. -/
theorem triple_right {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w3) (q : Fin W) (hq : q.val = w1 + w2 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = C (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 2 (by simp) _ C rfl rfl (w1 + w2) (by simp) (ix2 e a)
    (fun b hb => match b with | ⟨0, _⟩ => rfl | ⟨1, _⟩ => absurd rfl hb)
    (by show w1 + w2 + a.val = q.val; omega)

end Idealize.ShloMosaic.JoinCols

end
-- ==== Proof.KernelValue.lean ====
/-
  The idealized kernel program's two results as functions of its arguments.

  Reading the run's boundary contents back to the arguments: the first region leaves the product of the node table
  with the two weights side by side; the host stretch gathers its rows at the edges' sources, scales them by the
  edges' weights and adds them into a table of zeros at the targets; the second region adds the two biases end to end
  to every row. Entry by entry this is ONE layer of width 128 (`Cert.Gcn.layerOut`) whose weight and bias are the two
  layers' weights and biases joined. A layer's output in a column depends on that column of the weight and that entry
  of the bias alone, so the left half of the columns is the layer of the first weight and bias, the right half the
  layer of the second.
-/
import proofs.«155569_j46651934769921_1_alg».proof.Proof.Gen.KernelIdeal.Frame
import proofs.«155569_j46651934769921_1_alg».proof.Proof.KernelHost
import proofs.«155569_j46651934769921_1_alg».proof.Proof.Linear
import proofs.«155569_j46651934769921_1_alg».proof.Proof.Bias
import proofs.«155569_j46651934769921_1_alg».proof.Proof.Layer
import proofs.«155569_j46651934769921_1_alg».proof.Proof.LibJoinCols
import Idealize.ShloMosaic.Lib.ValueLayout

set_option maxRecDepth 16384

noncomputable section

open scoped BigOperators

namespace Cert.KernelIdeal.Whole

open Cert.KernelIdeal Cert.KernelIdeal.Gen Cert.KernelIdeal.Graph
open Idealize.ShloMosaic Idealize.ShloMosaic.TcCoe Idealize.SL.Sem Idealize.ShloMosaic.ValueIdx

variable (m : (ℓ : Loc nD τ sig) → Buf (Elt Ideal) ℓ) (ρ : Dev nD → PrngReg)

/-- The two weights side by side. -/
def wideW (c : Dev nD) : FVec Ideal S64x128 .f32 :=
  concatenate S64x128 1 [⟨S64x64, (m ((c.tc : Thread nD τ).loc main_arg2))⟩, ⟨S64x64, (m ((c.tc : Thread nD τ).loc main_arg4))⟩] concatenates_S64x64_S64x64_S64x128_d1

/-- The two biases end to end. -/
def wideB (c : Dev nD) : FVec Ideal S128 .f32 :=
  concatenate S128 0 [⟨S64, (m ((c.tc : Thread nD τ).loc main_arg3))⟩, ⟨S64, (m ((c.tc : Thread nD τ).loc main_arg5))⟩] concatenates_S64_S64_S128_d0

/-- No operation before the middle stretch writes the edge list. -/
theorem edges_at2 (c : Dev nD) : W2 m ρ c (Proc.devRef .tc main_arg1) = (m ((c.tc : Thread nD τ).loc main_arg1)) :=
  (W2_of_ne m ρ c main_arg1 (by decide)).trans ((edges_kept0 (W0 m ρ c)).trans rfl)

/-- The first region leaves the product of the node table with the joined weights. -/
theorem product_at2 (c : Dev nD) : W2 m ρ c (Proc.devRef .tc main_v3) = Linear.product (m ((c.tc : Thread nD τ).loc main_arg0)) (wideW m c) := by
  refine (W2_arr m ρ c 2).trans ((Linear.final (V1 m ρ) c).trans ?_)
  exact congrArg₂ Linear.product ((nodes_kept0 (W0 m ρ c)).trans rfl) ((weights_joined (W0 m ρ c)).trans rfl)

/-- The inverse square-root degrees, as the middle stretch leaves them. -/
theorem dinv_at4 (c : Dev nD) : W4 m ρ c (Proc.devRef .tc main_v18) = dinv (W2 m ρ c (Proc.devRef .tc main_arg1)) := by
  refine (select_read (W3 m ρ c)).trans ?_
  show select (StableHlo.after (hostOps1 (F := Ideal)) (W2 m ρ c) (Proc.devRef .tc main_v16))
      (StableHlo.after (hostOps1 (F := Ideal)) (W2 m ρ c) (Proc.devRef .tc main_v17))
      (broadcastInDim S100000 ![] bcast_S_S100000 (id (StableHlo.after (hostOps1 (F := Ideal)) (W2 m ρ c) (Proc.devRef .tc main_cst_2)))) = _
  rw [positive_read, rsqrt_read, zero_read]
  rfl

/-- The aggregated table at the second region's entry. -/
theorem aggregate_at5 (c : Dev nD) : W5 m ρ c (Proc.devRef .tc main_v46)
    = Host.scatterAdd scatter_S100000x128_S1300000x1_S1300000x128_1_0_0_1 (broadcastInDim S100000x128 ![] bcast_S_S100000x128 (constant S_ .f32 0x00000000#32)) (col (dstIdx (m ((c.tc : Thread nD τ).loc main_arg1))))
        (mulf (Host.gather gather_S100000x128_S1300000x1_S1300000x128_1_0_n_n_0_1_1128 (Linear.product (m ((c.tc : Thread nD τ).loc main_arg0)) (wideW m c)) (wrapCol (srcIdx (m ((c.tc : Thread nD τ).loc main_arg1)))))
          (broadcastInDim S1300000x128 ![0, 1] bcast_S1300000x1_S1300000x128_0_1 (broadcastInDim S1300000x1 ![0] bcast_S1300000_S1300000x1_0
            (norm (m ((c.tc : Thread nD τ).loc main_arg1)))))) := by
  refine (aggregate_read (W4 m ρ c)).trans ?_
  have h7 : W4 m ρ c (Proc.devRef .tc main_v7) = srcIdx (W2 m ρ c (Proc.devRef .tc main_arg1)) :=
    (src_kept2 (W3 m ρ c)).trans (src_read (W2 m ρ c))
  have h10 : W4 m ρ c (Proc.devRef .tc main_v10) = dstIdx (W2 m ρ c (Proc.devRef .tc main_arg1)) :=
    (dst_kept2 (W3 m ρ c)).trans (dst_read (W2 m ρ c))
  have h3 : W4 m ρ c (Proc.devRef .tc main_v3) = Linear.product (m ((c.tc : Thread nD τ).loc main_arg0)) (wideW m c) :=
    (product_kept2 (W3 m ρ c)).trans ((product_kept1 (W2 m ρ c)).trans (product_at2 m ρ c))
  rw [h7, h10, h3, dinv_at4, edges_at2]
  rfl

/-- The joined biases, as a one-row matrix, at the second region's entry. -/
theorem biases_at5 (c : Dev nD) : W5 m ρ c (Proc.devRef .tc main_v2) = shapeCast _ (wideB m c) shapeCasts_S128_S1x128 :=
  (biases_kept3 (W4 m ρ c)).trans ((biases_kept2 (W3 m ρ c)).trans ((biases_kept1 (W2 m ρ c)).trans
    ((W2_of_ne m ρ c main_v2 (by decide)).trans ((biases_joined (W0 m ρ c)).trans rfl))))

/-- The second region leaves one layer of width 128: the joined weights and the joined biases. -/
theorem wide_result (c : Dev nD) : W6 m ρ c (Proc.devRef .tc main_v47)
    = Cert.Gcn.layerOut (N := 100000) (E := 1300000) (K := 64) (C := 128) (by decide)
        ((constant S_ .f32 0x00000000#32 : FVec Ideal S_ .f32) ix0) (m ((c.tc : Thread nD τ).loc main_arg0)) (wideW m c) (wideB m c)
        (wrapCol (srcIdx (m ((c.tc : Thread nD τ).loc main_arg1)))) (col (dstIdx (m ((c.tc : Thread nD τ).loc main_arg1)))) (norm (m ((c.tc : Thread nD τ).loc main_arg1))) := by
  refine (W6_arr m ρ c 2).trans ((Bias.final (V5 m ρ) c).trans ?_)
  funext i
  obtain ⟨n, J, rfl⟩ : ∃ (n : Fin 100000) (J : Fin 128), i = ix2 n J := ⟨i 0, i 1, eq_ix2 i⟩
  unfold Bias.biased
  refine (congrArg₂ (fun a b : EReal => a + b)
    (congrFun (aggregate_at5 m ρ c : @Eq (S100000x128.Idx → Elt Ideal .f32) _ _) (ix2 n J))
    (congrFun (biases_at5 m ρ c : @Eq (S1x128.Idx → Elt Ideal .f32) _ _) (ix2 (0 : Fin 1) J))).trans ?_
  refine Cert.Gcn.layer_entry (K := 64) (by decide) scatter_S100000x128_S1300000x1_S1300000x128_1_0_0_1_wf
    gather_S100000x128_S1300000x1_S1300000x128_1_0_n_n_0_1_1128_wf bcast_S_S100000x128 bcast_S1300000_S1300000x1_0
    bcast_S1300000x1_S1300000x128_0_1 (constant S_ .f32 0x00000000#32)
    (Linear.product (m ((c.tc : Thread nD τ).loc main_arg0)) (wideW m c)) (wrapCol (srcIdx (m ((c.tc : Thread nD τ).loc main_arg1)))) (col (dstIdx (m ((c.tc : Thread nD τ).loc main_arg1)))) (norm (m ((c.tc : Thread nD τ).loc main_arg1)))
    (m ((c.tc : Thread nD τ).loc main_arg0)) (wideW m c) (wideB m c) _ n J (fun r => rfl) ?_
  exact shapeCast_a_1a_apply _ _ 0 J

/-- The joined biases in the left half are the first bias. -/
theorem wideB_left (c : Dev nD) (j : Fin 64) (J : Fin 128) (h : J.val = j.val) :
    wideB m c (ix1 J) = ((m ((c.tc : Thread nD τ).loc main_arg3)) : S64.Idx → Elt Ideal .f32) (ix1 j) := by
  unfold wideB
  exact concatenate_pair_apply_left (t := S128) (s₁ := S64) (s₂ := S64) 0 _ _ concatenates_S64_S64_S128_d0 (ix1 J) rfl (ix1 j)
    (fun b => match b with | ⟨0, _⟩ => h.symm)

/-- The joined biases in the right half are the second bias. -/
theorem wideB_right (c : Dev nD) (j : Fin 64) (J : Fin 128) (h : J.val = 64 + j.val) :
    wideB m c (ix1 J) = ((m ((c.tc : Thread nD τ).loc main_arg5)) : S64.Idx → Elt Ideal .f32) (ix1 j) := by
  unfold wideB
  exact concatenate_pair_apply_right (t := S128) (s₁ := S64) (s₂ := S64) 0 _ _ concatenates_S64_S64_S128_d0 (ix1 J) rfl rfl (ix1 j)
    (fun b hb => match b with | ⟨0, _⟩ => absurd rfl hb) (by show j.val + 64 = J.val; omega)

/-- The first result: the left half of the columns is the layer of the first weight and bias. -/
theorem out0 (c : Dev nD) : W7 m ρ c (Proc.devRef .tc main_v48)
    = Cert.Gcn.layerOut (N := 100000) (E := 1300000) (K := 64) (C := 64) (by decide)
        ((constant S_ .f32 0x00000000#32 : FVec Ideal S_ .f32) ix0) (m ((c.tc : Thread nD τ).loc main_arg0)) (m ((c.tc : Thread nD τ).loc main_arg2)) (m ((c.tc : Thread nD τ).loc main_arg3))
        (wrapCol (srcIdx (m ((c.tc : Thread nD τ).loc main_arg1)))) (col (dstIdx (m ((c.tc : Thread nD τ).loc main_arg1)))) (norm (m ((c.tc : Thread nD τ).loc main_arg1))) := by
  refine (left_half (W6 m ρ c)).trans ?_
  funext i
  obtain ⟨n, j, rfl⟩ : ∃ (n : Fin 100000) (j : Fin 64), i = ix2 n j := ⟨i 0, i 1, eq_ix2 i⟩
  have hJ : j.val < 128 := by omega
  refine (slice2_axis1_apply (n0 := 100000) (n1 := 128) (m := 64) 0
    (W6 m ρ c (Proc.devRef .tc main_v47) : S100000x128.Idx → Elt Ideal .f32) slices_S100000x128_S100000x64_0_0 n j ⟨j.val, hJ⟩
    (Nat.zero_add _).symm).trans ?_
  refine (congrFun (wide_result m ρ c) (ix2 n ⟨j.val, hJ⟩)).trans ?_
  exact Cert.Gcn.layerOut_cols _ _ _ _ _ _ _ _ _ _ n ⟨j.val, hJ⟩ j
    (fun k => JoinCols.pair_left _ _ _ k j ⟨j.val, hJ⟩ rfl) (wideB_left m c j ⟨j.val, hJ⟩ rfl)

/-- The second result: the right half of the columns is the layer of the second weight and bias. -/
theorem out1 (c : Dev nD) : W7 m ρ c (Proc.devRef .tc main_v49)
    = Cert.Gcn.layerOut (N := 100000) (E := 1300000) (K := 64) (C := 64) (by decide)
        ((constant S_ .f32 0x00000000#32 : FVec Ideal S_ .f32) ix0) (m ((c.tc : Thread nD τ).loc main_arg0)) (m ((c.tc : Thread nD τ).loc main_arg4)) (m ((c.tc : Thread nD τ).loc main_arg5))
        (wrapCol (srcIdx (m ((c.tc : Thread nD τ).loc main_arg1)))) (col (dstIdx (m ((c.tc : Thread nD τ).loc main_arg1)))) (norm (m ((c.tc : Thread nD τ).loc main_arg1))) := by
  refine (right_half (W6 m ρ c)).trans ?_
  funext i
  obtain ⟨n, j, rfl⟩ : ∃ (n : Fin 100000) (j : Fin 64), i = ix2 n j := ⟨i 0, i 1, eq_ix2 i⟩
  have hJ : 64 + j.val < 128 := by omega
  refine (slice2_axis1_apply (n0 := 100000) (n1 := 128) (m := 64) 64
    (W6 m ρ c (Proc.devRef .tc main_v47) : S100000x128.Idx → Elt Ideal .f32) slices_S100000x128_S100000x64_0_64 n j ⟨64 + j.val, hJ⟩
    rfl).trans ?_
  refine (congrFun (wide_result m ρ c) (ix2 n ⟨64 + j.val, hJ⟩)).trans ?_
  exact Cert.Gcn.layerOut_cols _ _ _ _ _ _ _ _ _ _ n ⟨64 + j.val, hJ⟩ j
    (fun k => JoinCols.pair_right _ _ _ k j ⟨64 + j.val, hJ⟩ rfl) (wideB_right m c j ⟨64 + j.val, hJ⟩ rfl)

end Cert.KernelIdeal.Whole

end
-- ==== Proof.RefValue.lean ====
/-
  The reference program's two results, read at an entry.

  The reference computes the edges' sources, targets and weights once, and then each of its two layers separately: the
  product of the node table with the layer's weight, its rows gathered at the sources, scaled by the edges' weights,
  added into a table of zeros at the targets, and the layer's bias added to every row (`layerTerm`). Entry by entry
  that is `Cert.Gcn.layerOut`.
-/
import proofs.«155569_j46651934769921_1_alg».proof.Proof.RefRun
import proofs.«155569_j46651934769921_1_alg».proof.Proof.Layer
import proofs.«155569_j46651934769921_1_alg».proof.Proof.LibContract
import proofs.«155569_j46651934769921_1_alg».proof.Proof.LibKeepdims
import Idealize.ShloMosaic.Lib.ValueIdx
import Idealize.ShloMosaic.PureOps.Ideal.Laws

set_option maxRecDepth 16384

noncomputable section

open scoped BigOperators

namespace Cert.ReferenceIdeal.Graph

open Cert.ReferenceIdeal Cert.ReferenceIdeal.Gen Idealize.ShloMosaic Idealize.ShloMosaic.TcCoe Idealize.SL.Sem
open Idealize.ShloMosaic.ValueIdx

/-- The edges' sources: the first row of the edge list, then one self-loop per node. -/
def srcIdx (ei : IVec S2x1200000 32) : IVec S1300000 32 :=
  concatenate S1300000 0 [⟨S1200000, (shapeCast _ (extractStridedSlice S1x1200000 ![0, 0] ei slices_S2x1200000_S1x1200000_0_0) shapeCasts_S1x1200000_S1200000)⟩, ⟨S100000, (iotaInDim S100000 32 0)⟩] concatenates_S1200000_S100000_S1300000_d0

/-- The edges' targets: the second row of the edge list, then one self-loop per node. -/
def dstIdx (ei : IVec S2x1200000 32) : IVec S1300000 32 :=
  concatenate S1300000 0 [⟨S1200000, (shapeCast _ (extractStridedSlice S1x1200000 ![1, 0] ei slices_S2x1200000_S1x1200000_1_0) shapeCasts_S1x1200000_S1200000)⟩, ⟨S100000, (iotaInDim S100000 32 0)⟩] concatenates_S1200000_S100000_S1300000_d0

/-- An index vector as a one-column matrix. -/
def col (v : IVec S1300000 32) : IVec S1300000x1 32 :=
  broadcastInDim S1300000x1 ![0] bcast_S1300000_S1300000x1_0 v

/-- An index vector with its negative entries moved up by the number of nodes, as a one-column matrix. -/
def wrapCol (v : IVec S1300000 32) : IVec S1300000x1 32 :=
  broadcastInDim S1300000x1 ![0] bcast_S1300000_S1300000x1_0 (select (cmpi .slt v (broadcastInDim S1300000 ![] bcast_S_S1300000 (constantI S_ 32 0#32))) (addi v (broadcastInDim S1300000 ![] bcast_S_S1300000 (constantI S_ 32 100000#32))) v)

/-- The nodes' in-degrees, self-loops included: ones added into a vector of zeros at the edges' targets. -/
def deg (ei : IVec S2x1200000 32) : FVec Ideal S100000 .f32 :=
  Host.scatterAdd scatter_S100000_S1300000x1_S1300000_n_0_0_1 (broadcastInDim S100000 ![] bcast_S_S100000 (constant S_ .f32 0x00000000#32)) (col (dstIdx ei)) (broadcastInDim S1300000 ![] bcast_S_S1300000 (constant S_ .f32 0x3F800000#32))

/-- The inverse square root of the degree where it is positive, zero elsewhere. -/
def dinv (ei : IVec S2x1200000 32) : FVec Ideal S100000 .f32 :=
  select (cmpf .ogt (deg ei) (broadcastInDim S100000 ![] bcast_S_S100000 (constant S_ .f32 0x00000000#32))) (Host.rsqrt (deg ei)) (broadcastInDim S100000 ![] bcast_S_S100000 (id (constant S_ .f32 0x00000000#32)))

/-- The edges' weights from the nodes' scales: the product of the two ends' scales. -/
def normOf (dv : FVec Ideal S100000 .f32) (s d : IVec S1300000 32) : FVec Ideal S1300000 .f32 :=
  mulf (Host.gather gather_S100000_S1300000x1_S1300000_n_0_n_n_0_1_1 dv (wrapCol s)) (Host.gather gather_S100000_S1300000x1_S1300000_n_0_n_n_0_1_1 dv (wrapCol d))

/-- The edges' weights: the product of the two ends' inverse square-root degrees. -/
def norm (ei : IVec S2x1200000 32) : FVec Ideal S1300000 .f32 :=
  normOf (dinv ei) (srcIdx ei) (dstIdx ei)

/-- One layer as the reference's host operations spell it. -/
def layerTerm (x : FVec Ideal S100000x64 .f32) (W : FVec Ideal S64x64 .f32) (b : FVec Ideal S64 .f32)
    (ei : IVec S2x1200000 32) : FVec Ideal S100000x64 .f32 :=
  addf (Host.scatterAdd scatter_S100000x64_S1300000x1_S1300000x64_1_0_0_1 (broadcastInDim S100000x64 ![] bcast_S_S100000x64 (constant S_ .f32 0x00000000#32)) (col (dstIdx ei))
      (mulf (Host.gather gather_S100000x64_S1300000x1_S1300000x64_1_0_n_n_0_1_164 (Host.dotGeneral dot_S100000x64_S64x64_S100000x64_1_0_0_1_n_n none x W) (wrapCol (srcIdx ei)))
        (broadcastInDim S1300000x64 ![0, 1] bcast_S1300000x1_S1300000x64_0_1 (broadcastInDim S1300000x1 ![0] bcast_S1300000_S1300000x1_0 (norm ei)))))
    (broadcastInDim S100000x64 ![0, 1] bcast_S1x64_S100000x64_0_1 (broadcastInDim S1x64 ![1] bcast_S64_S1x64_1 b))

variable (m : (ℓ : Loc nD τ sig) → Buf (Elt Ideal) ℓ)

/-- The first result is the layer of the first weight and bias. -/
theorem out0_term (c : Dev nD) : ValueP.res_main_v46 m c
    = layerTerm (m ((c.tc : Thread nD τ).loc main_arg0)) (m ((c.tc : Thread nD τ).loc main_arg2)) (m ((c.tc : Thread nD τ).loc main_arg3)) (m ((c.tc : Thread nD τ).loc main_arg1)) := by
  unfold ValueP.res_main_v46 layerTerm norm normOf dinv deg col wrapCol srcIdx dstIdx
  rfl

/-- The second result is the layer of the second weight and bias. -/
theorem out1_term (c : Dev nD) : ValueP.res_main_v63 m c
    = layerTerm (m ((c.tc : Thread nD τ).loc main_arg0)) (m ((c.tc : Thread nD τ).loc main_arg4)) (m ((c.tc : Thread nD τ).loc main_arg5)) (m ((c.tc : Thread nD τ).loc main_arg1)) := by
  unfold ValueP.res_main_v63 layerTerm norm normOf dinv deg col wrapCol srcIdx dstIdx
  rfl

/-- The layer's term, entry by entry. -/
theorem layerTerm_eq (x : FVec Ideal S100000x64 .f32) (W : FVec Ideal S64x64 .f32) (b : FVec Ideal S64 .f32)
    (ei : IVec S2x1200000 32) :
    layerTerm x W b ei = Cert.Gcn.layerOut (N := 100000) (E := 1300000) (K := 64) (C := 64) (by decide)
      ((constant S_ .f32 0x00000000#32 : FVec Ideal S_ .f32) ix0) x W b (wrapCol (srcIdx ei)) (col (dstIdx ei)) (norm ei) := by
  funext i
  obtain ⟨n, j, rfl⟩ : ∃ (n : Fin 100000) (j : Fin 64), i = ix2 n j := ⟨i 0, i 1, eq_ix2 i⟩
  unfold layerTerm
  rw [addf_apply]
  refine Cert.Gcn.layer_entry (K := 64) (by decide) scatter_S100000x64_S1300000x1_S1300000x64_1_0_0_1_wf
    gather_S100000x64_S1300000x1_S1300000x64_1_0_n_n_0_1_164_wf bcast_S_S100000x64 bcast_S1300000_S1300000x1_0
    bcast_S1300000x1_S1300000x64_0_1 (constant S_ .f32 0x00000000#32)
    (Host.dotGeneral dot_S100000x64_S64x64_S100000x64_1_0_0_1_n_n none x W) (wrapCol (srcIdx ei)) (col (dstIdx ei)) (norm ei)
    x W b _ n j (fun r => ?_) ?_
  · refine (Ideal.dotGeneral_apply dot_S100000x64_S64x64_S100000x64_1_0_0_1_n_n none _ x W (ix2 r j)).trans ?_
    exact Contract2.sum_contr_eq_sum_fin dot_S100000x64_S64x64_S100000x64_1_0_0_1_n_n rfl rfl rfl rfl
      (fun _ _ => rfl) (fun _ _ => rfl) x W (ix2 r j)
  · exact Keepdims.cols_apply _ _ b n j

end Cert.ReferenceIdeal.Graph

end
-- ==== Proof.lean ====
/-
  Two graph-convolution layers that share their edges, computed as one layer of twice the width.

  The reference computes, for each of two weights and biases, the layer
      out (n, j) = (0 + ∑ over the edges e into n of (∑ k, x (s e, k) · W (k, j)) · nrm e) + b j
  (`Cert.Gcn.layerOut`: `s e` the edge's source row, `nrm e` the product of the two ends' inverse square-root
  degrees, self-loops included), the sources, targets and weights of the edges computed once from the edge list.
  The kernel program multiplies the node table by the two weights side by side in its first kernel region, gathers,
  scales and scatter-adds the 128 columns at once on the host, adds the two biases end to end in its second region and
  cuts the result into its two halves of 64 columns. Since entry `(n, j)` of a layer depends on column `j` of the
  weight and entry `j` of the bias alone, the left half is the first layer and the right half the second. No law of
  arithmetic is used beyond reading both sides at an entry: the two sums are the same sums, term by term, so the
  precondition is not opened.

  The frames of the two kernel programs are the generated ones; the reference's frame is its run with the results
  dropped; the ideal pass rewrote nothing, so `preserves` is trivial.
-/
import proofs.«155569_j46651934769921_1_alg».proof.Defs
import proofs.«155569_j46651934769921_1_alg».proof.Proof.Gen.Kernel
import proofs.«155569_j46651934769921_1_alg».proof.Proof.Gen.Kernel.Skeleton
import proofs.«155569_j46651934769921_1_alg».proof.Proof.Gen.Kernel.Launch
import proofs.«155569_j46651934769921_1_alg».proof.Proof.Gen.Kernel.Points
import proofs.«155569_j46651934769921_1_alg».proof.Proof.Gen.Kernel.Frame
import proofs.«155569_j46651934769921_1_alg».proof.Proof.Gen.KernelIdeal
import proofs.«155569_j46651934769921_1_alg».proof.Proof.Gen.KernelIdeal.Skeleton
import proofs.«155569_j46651934769921_1_alg».proof.Proof.Gen.KernelIdeal.Launch
import proofs.«155569_j46651934769921_1_alg».proof.Proof.Gen.KernelIdeal.Points
import proofs.«155569_j46651934769921_1_alg».proof.Proof.Gen.KernelIdeal.Frame
import proofs.«155569_j46651934769921_1_alg».proof.Proof.Gen.ReferenceIdeal
import proofs.«155569_j46651934769921_1_alg».proof.Proof.Gen.Pre_finite_inputs
import proofs.«155569_j46651934769921_1_alg».proof.Proof.KernelRun
import proofs.«155569_j46651934769921_1_alg».proof.Proof.KernelValue
import proofs.«155569_j46651934769921_1_alg».proof.Proof.RefRun
import proofs.«155569_j46651934769921_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## The edges' sources, targets and weights are the same functions of the edge list in both programs -/

theorem src_same (ei : IVec Cert.KernelIdeal.S2x1200000 32) :
    Cert.ReferenceIdeal.Graph.wrapCol (Cert.ReferenceIdeal.Graph.srcIdx ei)
      = Cert.KernelIdeal.Graph.wrapCol (Cert.KernelIdeal.Graph.srcIdx ei) := rfl

theorem dst_same (ei : IVec Cert.KernelIdeal.S2x1200000 32) :
    Cert.ReferenceIdeal.Graph.col (Cert.ReferenceIdeal.Graph.dstIdx ei)
      = Cert.KernelIdeal.Graph.col (Cert.KernelIdeal.Graph.dstIdx ei) := rfl

theorem norm_same (ei : IVec Cert.KernelIdeal.S2x1200000 32) :
    Cert.ReferenceIdeal.Graph.norm ei = Cert.KernelIdeal.Graph.norm ei := rfl

/-! ## The kernel program's run with its two results named -/

/-- The first layer of the kernel program's arguments. -/
def layer0 (m : (ℓ : Loc Cert.KernelIdeal.nD Cert.KernelIdeal.τ Cert.KernelIdeal.sig) → Buf (Elt Ideal) ℓ)
    (c : Dev Cert.KernelIdeal.nD) : Buf (Elt Ideal) ((c.tc : Thread Cert.KernelIdeal.nD Cert.KernelIdeal.τ).loc Cert.KernelIdeal.main_v48) :=
  Cert.Gcn.layerOut (N := 100000) (E := 1300000) (K := 64) (C := 64) (by decide)
    ((constant Cert.KernelIdeal.S_ .f32 0x00000000#32 : FVec Ideal Cert.KernelIdeal.S_ .f32) ix0) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (Cert.KernelIdeal.Graph.wrapCol (Cert.KernelIdeal.Graph.srcIdx (m ((c.tc : Thread Cert.KernelIdeal.nD Cert.KernelIdeal.τ).loc Cert.KernelIdeal.main_arg1)))) (Cert.KernelIdeal.Graph.col (Cert.KernelIdeal.Graph.dstIdx (m ((c.tc : Thread Cert.KernelIdeal.nD Cert.KernelIdeal.τ).loc Cert.KernelIdeal.main_arg1))))
    (Cert.KernelIdeal.Graph.norm (m ((c.tc : Thread Cert.KernelIdeal.nD Cert.KernelIdeal.τ).loc Cert.KernelIdeal.main_arg1)))

/-- The second layer of the kernel program's arguments. -/
def layer1 (m : (ℓ : Loc Cert.KernelIdeal.nD Cert.KernelIdeal.τ Cert.KernelIdeal.sig) → Buf (Elt Ideal) ℓ)
    (c : Dev Cert.KernelIdeal.nD) : Buf (Elt Ideal) ((c.tc : Thread Cert.KernelIdeal.nD Cert.KernelIdeal.τ).loc Cert.KernelIdeal.main_v49) :=
  Cert.Gcn.layerOut (N := 100000) (E := 1300000) (K := 64) (C := 64) (by decide)
    ((constant Cert.KernelIdeal.S_ .f32 0x00000000#32 : FVec Ideal Cert.KernelIdeal.S_ .f32) ix0) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (Cert.KernelIdeal.Graph.wrapCol (Cert.KernelIdeal.Graph.srcIdx (m ((c.tc : Thread Cert.KernelIdeal.nD Cert.KernelIdeal.τ).loc Cert.KernelIdeal.main_arg1)))) (Cert.KernelIdeal.Graph.col (Cert.KernelIdeal.Graph.dstIdx (m ((c.tc : Thread Cert.KernelIdeal.nD Cert.KernelIdeal.τ).loc Cert.KernelIdeal.main_arg1))))
    (Cert.KernelIdeal.Graph.norm (m ((c.tc : Thread Cert.KernelIdeal.nD Cert.KernelIdeal.τ).loc Cert.KernelIdeal.main_arg1)))

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- Both programs end with the two layers of the arguments. -/
theorem algebraic : Cert.algebraic_KernelIdeal_ReferenceIdeal := by
  intro m ρ m' ρ' _ hagree
  refine ⟨layer0 m, layer1 m, ?_, ?_⟩
  · exact (θ_run Cert.KernelIdeal.defs _ _).mono
      (fun _ h c => ⟨(h c).1.trans (Cert.KernelIdeal.Whole.out0 m ρ c), (h c).2.1.trans (Cert.KernelIdeal.Whole.out1 m ρ c), (h c).2.2⟩)
      (Cert.KernelIdeal.Whole.run (F := Ideal) m ρ)
  · refine (θ_run Cert.ReferenceIdeal.defs _ _).mono (fun _ h c => ?_) (Cert.ReferenceIdeal.ValueP.run (F := Ideal) m' ρ')
    obtain ⟨e0, e1, e2, e3, e4, e5⟩ := hagree c
    refine ⟨(h c).1.trans ?_, (h c).2.1.trans ?_, (h c).2.2⟩
    · rw [Cert.ReferenceIdeal.Graph.out0_term, Cert.ReferenceIdeal.Graph.layerTerm_eq, e0, e1, e2, e3, src_same, dst_same, norm_same]
      rfl
    · rw [Cert.ReferenceIdeal.Graph.out1_term, Cert.ReferenceIdeal.Graph.layerTerm_eq, e0, e1, e4, e5, src_same, dst_same, norm_same]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
